-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384x1024 : Shape := ⟨2, ![16384, 1024]⟩
abbrev S3x16384x64 : Shape := ⟨3, ![3, 16384, 64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S3x16384x64 : S_.BroadcastsInDim S3x16384x64 (![] : Fin 0 → Fin S3x16384x64.rank)
  reducesTo_S3x16384x64_S_d0_1_2 : S3x16384x64.ReducesTo [0, 1, 2] S_

variable [Facts]

def fn_part1 {F : FTy → Type} [FloatOps F] (main_v13 : IVec S_ 1) (main_v16 : IVec S3x16384x64 1) : IVec S_ 1 :=
  let main_c_5 : IVec S_ 1 := constantI S_ 1 1#1
  let main_v17 : IVec S_ 1 := (fun x v => Host.reduce IntOp.andi x v reducesTo_S3x16384x64_S_d0_1_2 h_S_) main_v16 main_c_5
  let main_v18 : IVec S_ 1 := andi main_v13 main_v17
  main_v18

def fn {F : FTy → Type} [FloatOps F] (main_arg0 : FVec F S16384x4096 .f32) (main_arg1 : FVec F S16384x1024 .f32) (main_arg2 : FVec F S3x16384x64 .f32) (main_arg3 : FVec F S3x16384x64 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S3x16384x64 .f32 := Host.absf main_arg2
  let main_cst_2 : FVec F S_ .f32 := constant S_ .f32 0x7F800000#32
  let main_v10 : FVec F S3x16384x64 .f32 := broadcastInDim S3x16384x64 ![] bcast_S_S3x16384x64 main_cst_2
  let main_v11 : IVec S3x16384x64 1 := cmpf .olt main_v9 main_v10
  let main_c_3 : IVec S_ 1 := constantI S_ 1 1#1
  let main_v12 : IVec S_ 1 := (fun x v => Host.reduce IntOp.andi x v reducesTo_S3x16384x64_S_d0_1_2 h_S_) main_v11 main_c_3
  let main_v13 : IVec S_ 1 := andi main_v8 main_v12
  let main_v14 : FVec F S3x16384x64 .f32 := Host.absf main_arg3
  let main_cst_4 : FVec F S_ .f32 := constant S_ .f32 0x7F800000#32
  let main_v15 : FVec F S3x16384x64 .f32 := broadcastInDim S3x16384x64 ![] bcast_S_S3x16384x64 main_cst_4
  let main_v16 : IVec S3x16384x64 1 := cmpf .olt main_v14 main_v15
  fn_part1 (F := F) main_v13 main_v16
-- ==== Kernel.lean ====
abbrev S16384x4096 : Shape := ⟨2, ![16384, 4096]⟩
abbrev S16384x1024 : Shape := ⟨2, ![16384, 1024]⟩
abbrev S3x16384x64 : Shape := ⟨3, ![3, 16384, 64]⟩
abbrev S64 : Shape := ⟨1, ![64]⟩
abbrev S_ : Shape := ⟨0, ![]⟩
abbrev S1x16384x64 : Shape := ⟨3, ![1, 16384, 64]⟩
abbrev S16384x64 : Shape := ⟨2, ![16384, 64]⟩
abbrev S256x4096 : Shape := ⟨2, ![256, 4096]⟩
abbrev S256x64 : Shape := ⟨2, ![256, 64]⟩
abbrev S256x32x128 : Shape := ⟨3, ![256, 32, 128]⟩
abbrev S256x1x64 : Shape := ⟨3, ![256, 1, 64]⟩
abbrev S256x32x64 : Shape := ⟨3, ![256, 32, 64]⟩
abbrev S256x1024 : Shape := ⟨2, ![256, 1024]⟩
abbrev S256x8x128 : Shape := ⟨3, ![256, 8, 128]⟩
abbrev S256x8x64 : Shape := ⟨3, ![256, 8, 64]⟩

abbrev nBuf : Space → Nat
  | .hbm => 37
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S3x16384x64, .f32⟩
  | .hbm, ⟨3, _⟩ => ⟨S3x16384x64, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i1⟩
  | .hbm, ⟨14, _⟩ => ⟨S64, .i1⟩
  | .hbm, ⟨15, _⟩ => ⟨S1x16384x64, .f32⟩
  | .hbm, ⟨16, _⟩ => ⟨S16384x64, .f32⟩
  | .hbm, ⟨17, _⟩ => ⟨S1x16384x64, .f32⟩
  | .hbm, ⟨18, _⟩ => ⟨S16384x64, .f32⟩
  | .hbm, ⟨19, _⟩ => ⟨S1x16384x64, .f32⟩
  | .hbm, ⟨20, _⟩ => ⟨S16384x64, .f32⟩
  | .hbm, ⟨21, _⟩ => ⟨S16384x64, .i1⟩
  | .hbm, ⟨22, _⟩ => ⟨S16384x64, .f32⟩
  | .hbm, ⟨23, _⟩ => ⟨S16384x64, .i1⟩
  | .hbm, ⟨24, _⟩ => ⟨S16384x64, .f32⟩
  | .hbm, ⟨25, _⟩ => ⟨S1x16384x64, .f32⟩
  | .hbm, ⟨26, _⟩ => ⟨S16384x64, .f32⟩
  | .hbm, ⟨27, _⟩ => ⟨S1x16384x64, .f32⟩
  | .hbm, ⟨28, _⟩ => ⟨S16384x64, .f32⟩
  | .hbm, ⟨29, _⟩ => ⟨S1x16384x64, .f32⟩
  | .hbm, ⟨30, _⟩ => ⟨S16384x64, .f32⟩
  | .hbm, ⟨31, _⟩ => ⟨S16384x64, .i1⟩
  | .hbm, ⟨32, _⟩ => ⟨S16384x64, .f32⟩
  | .hbm, ⟨33, _⟩ => ⟨S16384x64, .i1⟩
  | .hbm, ⟨34, _⟩ => ⟨S16384x64, .f32⟩
  | .hbm, ⟨35, _⟩ => ⟨S16384x4096, .f32⟩
  | .hbm, ⟨36, _⟩ => ⟨S16384x1024, .f32⟩
  | .local _ .vmem, ⟨0, _⟩ => ⟨S256x4096, .f32⟩
  | .local _ .vmem, ⟨1, _⟩ => ⟨S256x4096, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x4096, .f32⟩
  | .local _ .vmem, ⟨7, _⟩ => ⟨S256x4096, .f32⟩
  | .local _ .vmem, ⟨8, _⟩ => ⟨S256x1024, .f32⟩
  | .local _ .vmem, ⟨9, _⟩ => ⟨S256x1024, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S256x64, .f32⟩
  | .local _ .vmem, ⟨14, _⟩ => ⟨S256x1024, .f32⟩
  | .local _ .vmem, ⟨15, _⟩ => ⟨S256x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_v14 : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call2_v0 : Ref sig .tc := ⟨.hbm, 31, rfl⟩
abbrev main_v22 : Ref sig .tc := ⟨.hbm, 32, rfl⟩
abbrev main_call3_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S64 : S_.BroadcastsInDim S64 (![] : Fin 0 → Fin S64.rank)
  slices_S3x16384x64_S1x16384x64_0_0_0 : S3x16384x64.Slices ![0, 0, 0] S1x16384x64
  shapeCasts_S1x16384x64_S16384x64 : S1x16384x64.ShapeCasts S16384x64
  slices_S3x16384x64_S1x16384x64_1_0_0 : S3x16384x64.Slices ![1, 0, 0] S1x16384x64
  slices_S3x16384x64_S1x16384x64_2_0_0 : S3x16384x64.Slices ![2, 0, 0] S1x16384x64
  bcast_S64_S16384x64_1 : S64.BroadcastsInDim S16384x64 (![1] : Fin 1 → Fin S16384x64.rank)
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S256x64_S256x1x64 : S256x64.ShapeCasts S256x1x64
  slices_S256x32x128_o0_0_0_S256x32x64 : S256x32x128.Slices ![0, 0, 0] S256x32x64
  slices_S256x32x128_o0_0_64_S256x32x64 : S256x32x128.Slices ![0, 0, 64] S256x32x64
  broadcasts_S256x1x64_S256x32x64 : S256x1x64.Broadcasts S256x32x64
  concatenates_S256x32x64_S256x32x64_S256x32x128_d2 : Shape.Concatenates [S256x32x64, S256x32x64] S256x32x128 2
  shapeCasts_S256x32x128_S256x4096 : S256x32x128.ShapeCasts S256x4096
  inb_S256x1024_S256x1024_0_0 : ∀ a, (![0, 0] : Fin 2 → Nat) a + S256x1024.size a ≤ S256x1024.size a
  h_S256x1024 : 0 < S256x1024.numel
  shapeCasts_S256x1024_S256x8x128 : S256x1024.ShapeCasts S256x8x128
  slices_S256x8x128_o0_0_0_S256x8x64 : S256x8x128.Slices ![0, 0, 0] S256x8x64
  slices_S256x8x128_o0_0_64_S256x8x64 : S256x8x128.Slices ![0, 0, 64] S256x8x64
  broadcasts_S256x1x64_S256x8x64 : S256x1x64.Broadcasts S256x8x64
  concatenates_S256x8x64_S256x8x64_S256x8x128_d2 : Shape.Concatenates [S256x8x64, S256x8x64] S256x8x128 2
  shapeCasts_S256x8x128_S256x1024 : S256x8x128.ShapeCasts S256x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S16384x64.size a
  hwx0_1 : ∀ i : grid0.Coords, EltTy.bits .f32 = 32 ∨ (Rect.block (s := S16384x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S16384x64.size a
  hwx0_2 : ∀ i : grid0.Coords, EltTy.bits .f32 = 32 ∨ (Rect.block (s := S16384x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S16384x1024.size a
  hwx1_0 : ∀ i : grid1.Coords, EltTy.bits .f32 = 32 ∨ (Rect.block (s := S16384x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S16384x64.size a
  hwx1_1 : ∀ i : grid1.Coords, EltTy.bits .f32 = 32 ∨ (Rect.block (s := S16384x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S16384x64.size a
  hwx1_2 : ∀ i : grid1.Coords, EltTy.bits .f32 = 32 ∨ (Rect.block (s := S16384x64) S256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S16384x1024.size a
  hwx1_3 : ∀ i : grid1.Coords, EltTy.bits .f32 = 32 ∨ (Rect.block (s := S16384x1024) S256x1024.size (cc1_transform_3 i) (hinb1_3 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S256x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S16384x1024 : Shape := ⟨2, ![16384, 1024]⟩
abbrev S3x16384x64 : Shape := ⟨3, ![3, 16384, 64]⟩
abbrev S64 : Shape := ⟨1, ![64]⟩
abbrev S_ : Shape := ⟨0, ![]⟩
abbrev S1x16384x64 : Shape := ⟨3, ![1, 16384, 64]⟩
abbrev S16384x64 : Shape := ⟨2, ![16384, 64]⟩
abbrev S16384x32x128 : Shape := ⟨3, ![16384, 32, 128]⟩
abbrev S16384x32x64 : Shape := ⟨3, ![16384, 32, 64]⟩
abbrev S16384x1x64 : Shape := ⟨3, ![16384, 1, 64]⟩
abbrev S16384x32x0 : Shape := ⟨3, ![16384, 32, 0]⟩
abbrev S16384x8x128 : Shape := ⟨3, ![16384, 8, 128]⟩
abbrev S16384x8x64 : Shape := ⟨3, ![16384, 8, 64]⟩
abbrev S16384x8x0 : Shape := ⟨3, ![16384, 8, 0]⟩

abbrev nBuf : Space → Nat
  | .hbm => 71
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S3x16384x64, .f32⟩
  | .hbm, ⟨3, _⟩ => ⟨S3x16384x64, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i1⟩
  | .hbm, ⟨14, _⟩ => ⟨S64, .i1⟩
  | .hbm, ⟨15, _⟩ => ⟨S1x16384x64, .f32⟩
  | .hbm, ⟨16, _⟩ => ⟨S16384x64, .f32⟩
  | .hbm, ⟨17, _⟩ => ⟨S1x16384x64, .f32⟩
  | .hbm, ⟨18, _⟩ => ⟨S16384x64, .f32⟩
  | .hbm, ⟨19, _⟩ => ⟨S1x16384x64, .f32⟩
  | .hbm, ⟨20, _⟩ => ⟨S16384x64, .f32⟩
  | .hbm, ⟨21, _⟩ => ⟨S16384x64, .i1⟩
  | .hbm, ⟨22, _⟩ => ⟨S16384x64, .f32⟩
  | .hbm, ⟨23, _⟩ => ⟨S16384x64, .i1⟩
  | .hbm, ⟨24, _⟩ => ⟨S16384x64, .f32⟩
  | .hbm, ⟨25, _⟩ => ⟨S1x16384x64, .f32⟩
  | .hbm, ⟨26, _⟩ => ⟨S16384x64, .f32⟩
  | .hbm, ⟨27, _⟩ => ⟨S1x16384x64, .f32⟩
  | .hbm, ⟨28, _⟩ => ⟨S16384x64, .f32⟩
  | .hbm, ⟨29, _⟩ => ⟨S1x16384x64, .f32⟩
  | .hbm, ⟨30, _⟩ => ⟨S16384x64, .f32⟩
  | .hbm, ⟨31, _⟩ => ⟨S16384x64, .i1⟩
  | .hbm, ⟨32, _⟩ => ⟨S16384x64, .f32⟩
  | .hbm, ⟨33, _⟩ => ⟨S16384x64, .i1⟩
  | .hbm, ⟨34, _⟩ => ⟨S16384x64, .f32⟩
  | .hbm, ⟨35, _⟩ => ⟨S16384x32x128, .f32⟩
  | .hbm, ⟨36, _⟩ => ⟨S16384x32x64, .f32⟩
  | .hbm, ⟨37, _⟩ => ⟨S16384x32x64, .f32⟩
  | .hbm, ⟨38, _⟩ => ⟨S16384x1x64, .f32⟩
  | .hbm, ⟨39, _⟩ => ⟨S16384x1x64, .f32⟩
  | .hbm, ⟨40, _⟩ => ⟨S16384x32x64, .f32⟩
  | .hbm, ⟨41, _⟩ => ⟨S16384x32x64, .f32⟩
  | .hbm, ⟨42, _⟩ => ⟨S16384x32x64, .f32⟩
  | .hbm, ⟨43, _⟩ => ⟨S16384x32x64, .f32⟩
  | .hbm, ⟨44, _⟩ => ⟨S16384x32x64, .f32⟩
  | .hbm, ⟨45, _⟩ => ⟨S16384x32x64, .f32⟩
  | .hbm, ⟨46, _⟩ => ⟨S16384x32x64, .f32⟩
  | .hbm, ⟨47, _⟩ => ⟨S16384x32x64, .f32⟩
  | .hbm, ⟨48, _⟩ => ⟨S16384x32x64, .f32⟩
  | .hbm, ⟨49, _⟩ => ⟨S16384x32x64, .f32⟩
  | .hbm, ⟨50, _⟩ => ⟨S16384x32x0, .f32⟩
  | .hbm, ⟨51, _⟩ => ⟨S16384x32x128, .f32⟩
  | .hbm, ⟨52, _⟩ => ⟨S16384x4096, .f32⟩
  | .hbm, ⟨53, _⟩ => ⟨S16384x8x128, .f32⟩
  | .hbm, ⟨54, _⟩ => ⟨S16384x8x64, .f32⟩
  | .hbm, ⟨55, _⟩ => ⟨S16384x8x64, .f32⟩
  | .hbm, ⟨56, _⟩ => ⟨S16384x1x64, .f32⟩
  | .hbm, ⟨57, _⟩ => ⟨S16384x1x64, .f32⟩
  | .hbm, ⟨58, _⟩ => ⟨S16384x8x64, .f32⟩
  | .hbm, ⟨59, _⟩ => ⟨S16384x8x64, .f32⟩
  | .hbm, ⟨60, _⟩ => ⟨S16384x8x64, .f32⟩
  | .hbm, ⟨61, _⟩ => ⟨S16384x8x64, .f32⟩
  | .hbm, ⟨62, _⟩ => ⟨S16384x8x64, .f32⟩
  | .hbm, ⟨63, _⟩ => ⟨S16384x8x64, .f32⟩
  | .hbm, ⟨64, _⟩ => ⟨S16384x8x64, .f32⟩
  | .hbm, ⟨65, _⟩ => ⟨S16384x8x64, .f32⟩
  | .hbm, ⟨66, _⟩ => ⟨S16384x8x64, .f32⟩
  | .hbm, ⟨67, _⟩ => ⟨S16384x8x64, .f32⟩
  | .hbm, ⟨68, _⟩ => ⟨S16384x8x0, .f32⟩
  | .hbm, ⟨69, _⟩ => ⟨S16384x8x128, .f32⟩
  | .hbm, ⟨70, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_v14 : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call2_v0 : Ref sig .tc := ⟨.hbm, 31, rfl⟩
abbrev main_v22 : Ref sig .tc := ⟨.hbm, 32, rfl⟩
abbrev main_call3_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩

abbrev nD : Nat := 1
abbrev τ : Topo := Topo.v7x

variable {F : FTy → Type} [FloatOps F]

class Facts₀ : Prop where
  bcast_S_S64 : S_.BroadcastsInDim S64 (![] : Fin 0 → Fin S64.rank)
  slices_S3x16384x64_S1x16384x64_0_0_0 : S3x16384x64.Slices ![0, 0, 0] S1x16384x64
  shapeCasts_S1x16384x64_S16384x64 : S1x16384x64.ShapeCasts S16384x64
  slices_S3x16384x64_S1x16384x64_1_0_0 : S3x16384x64.Slices ![1, 0, 0] S1x16384x64
  slices_S3x16384x64_S1x16384x64_2_0_0 : S3x16384x64.Slices ![2, 0, 0] S1x16384x64
  bcast_S64_S16384x64_1 : S64.BroadcastsInDim S16384x64 (![1] : Fin 1 → Fin S16384x64.rank)
  shapeCasts_S16384x4096_S16384x32x128 : S16384x4096.ShapeCasts S16384x32x128
  slices_S16384x32x128_S16384x32x64_0_0_0 : S16384x32x128.Slices ![0, 0, 0] S16384x32x64
  slices_S16384x32x128_S16384x32x64_0_0_64 : S16384x32x128.Slices ![0, 0, 64] S16384x32x64
  bcast_S16384x64_S16384x1x64_0_2 : S16384x64.BroadcastsInDim S16384x1x64 (![0, 2] : Fin 2 → Fin S16384x1x64.rank)
  bcast_S16384x1x64_S16384x32x64_0_1_2 : S16384x1x64.BroadcastsInDim S16384x32x64 (![0, 1, 2] : Fin 3 → Fin S16384x32x64.rank)
  slices_S16384x32x128_S16384x32x0_0_0_128 : S16384x32x128.Slices ![0, 0, 128] S16384x32x0
  concatenates_S16384x32x64_S16384x32x64_S16384x32x0_S16384x32x128_d2 : Shape.Concatenates [S16384x32x64, S16384x32x64, S16384x32x0] S16384x32x128 2
  shapeCasts_S16384x32x128_S16384x4096 : S16384x32x128.ShapeCasts S16384x4096
  shapeCasts_S16384x1024_S16384x8x128 : S16384x1024.ShapeCasts S16384x8x128
  slices_S16384x8x128_S16384x8x64_0_0_0 : S16384x8x128.Slices ![0, 0, 0] S16384x8x64
  slices_S16384x8x128_S16384x8x64_0_0_64 : S16384x8x128.Slices ![0, 0, 64] S16384x8x64
  bcast_S16384x1x64_S16384x8x64_0_1_2 : S16384x1x64.BroadcastsInDim S16384x8x64 (![0, 1, 2] : Fin 3 → Fin S16384x8x64.rank)
  slices_S16384x8x128_S16384x8x0_0_0_128 : S16384x8x128.Slices ![0, 0, 128] S16384x8x0
  concatenates_S16384x8x64_S16384x8x64_S16384x8x0_S16384x8x128_d2 : Shape.Concatenates [S16384x8x64, S16384x8x64, S16384x8x0] S16384x8x128 2
  shapeCasts_S16384x8x128_S16384x1024 : S16384x8x128.ShapeCasts S16384x1024

variable [Facts₀]

class Facts : Prop extends Facts₀ where

variable [Facts]
-- ==== Proof.KernelRun.lean ====
/-
  The kernel program's run with every buffer named at the end. The program is six stretches of host operations (the
  selection of the cosine and sine rows) followed by two kernel regions (q, then k). The generated frame composes these
  eight segments and keeps, of the final memory, only that the four arguments are unchanged; the same composition
  gives more: every unscoped buffer of a core ends at the contents W8 that the fold through the segments leaves
  (the host stretches' results, then each region's arrays at what its write-backs leave). The two result arrays are
  read off that fold in KernelValue.
-/
import proofs.«179388_j67293547594175_1_alg».proof.Proof.Gen.KernelIdeal.Frame

set_option maxRecDepth 16384

noncomputable section

namespace Cert.KernelIdeal.Rope

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, and in every final state each
    unscoped buffer of each core holds the last boundary's contents W8. -/
theorem run_unscoped : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Rope

end
-- ==== Proof.LibRotateHalf.lean ====
/-
  Rotate-half rotary embedding as ONE row-local function of its three arrays, and the reads that carry an index
  through the layout operations around it.

  An array x : [R, W], W = H * 128, is H groups ("heads") of 128 columns per row; C, S : [R, 64] hold one row of 64
  factors per row of x. Inside a head, column d < 64 is paired with column d + 64. The rotated array is

      out (r, h*128 + d)      = x (r, h*128 + d)      * C (r, d) - x (r, h*128 + 64 + d) * S (r, d)      (d < 64)
      out (r, h*128 + 64 + d) = x (r, h*128 + 64 + d) * C (r, d) + x (r, h*128 + d)      * S (r, d)      (d < 64)

  so every entry reads its own column, its PARTNER column (64 further in the first half of the head, 64 back in the
  second) and the factors at lane (column mod 64), all in its own row. Nothing here uses a law of the arithmetic: the
  three operations are any float instance's, and the statements hold for every instance.
-/
import Idealize.ShloMosaic.Lib.ValueIdx
import Idealize.ShloMosaic.Lib.Pipeline.Value

noncomputable section

namespace RotateHalf

open Idealize.ShloMosaic Idealize.ShloMosaic.ValueIdx

/-! ## The shapes, by their extents -/

/-- [R, W]: the array, a row of H heads of 128 columns flattened. -/
abbrev Flat (R W : Nat) : Shape := ⟨2, ![R, W]⟩
/-- [R, H, 128]: the same array with the heads as an axis. -/
abbrev Heads (R H : Nat) : Shape := ⟨3, ![R, H, 128]⟩
/-- [R, H, 64]: one half of every head. -/
abbrev Halves (R H : Nat) : Shape := ⟨3, ![R, H, 64]⟩
/-- [R, 64]: the factors, one row of 64 per row of the array. -/
abbrev Rows (R : Nat) : Shape := ⟨2, ![R, 64]⟩
/-- [R, 1, 64]: the factors with a unit axis where the heads go. -/
abbrev RowsUnit (R : Nat) : Shape := ⟨3, ![R, 1, 64]⟩

/-! ## The function -/

/-- The column paired with column col inside its head: 64 further in the head's first half, 64 back in its second. -/
def partner (col : Nat) : Nat := col / 128 * 128 + (col + 64) % 128

theorem partner_lt {H W : Nat} (hW : W = H * 128) {col : Nat} (h : col < W) : partner col < W := by
  unfold partner; omega

theorem partner_of_lt {col : Nat} (h : col % 128 < 64) : partner col = col + 64 := by
  unfold partner; omega

theorem partner_of_ge {col : Nat} (h : 64 ≤ col % 128) : partner col = col - 64 := by
  unfold partner; omega

variable {F : FTy → Type} [FloatOps F] {φ : FTy}

/-- The partner of an index: same row, partner column (the column itself where the partner would fall outside the
    array, which happens for no column when the width is a multiple of 128). -/
def partnerIdx {R W : Nat} (i : (Flat R W).Idx) : (Flat R W).Idx :=
  ix2 (i 0) (⟨if partner (i 1).val < W then partner (i 1).val else (i 1).val, by
    split
    · assumption
    · exact (i 1).isLt⟩ : Fin W)

/-- The factors' index of an array index: same row, lane (column mod 64). -/
def laneIdx {R W : Nat} (i : (Flat R W).Idx) : (Rows R).Idx :=
  ix2 (i 0) (⟨(i 1).val % 64, Nat.mod_lt _ (by decide)⟩ : Fin 64)

/-- Rotate-half: the first half of every head is x * C - partner * S, the second x * C + partner * S. -/
def rotateHalf {R W : Nat} (x : FVec F (Flat R W) φ) (C S : FVec F (Rows R) φ) : FVec F (Flat R W) φ := fun i =>
  if (i 1).val % 128 < 64 then
    FloatOps.subf (FloatOps.mulf (x i) (C (laneIdx i))) (FloatOps.mulf (x (partnerIdx i)) (S (laneIdx i)))
  else
    FloatOps.addf (FloatOps.mulf (x i) (C (laneIdx i))) (FloatOps.mulf (x (partnerIdx i)) (S (laneIdx i)))

/-! ## The layout operations read at an index

Every operation below only moves entries; each lemma says where the entry at an index comes from. They are stated for
entries of any type, any number of rows R and any number of heads H, with W = H * 128. -/

section Reads

variable {α : Type} {R H W : Nat}

/-- [R, W] viewed as [R, H, 128]: entry (r, h, d) is entry (r, h * 128 + d). -/
theorem heads_apply (hW : W = H * 128) (x : (Flat R W).Idx → α) (h : (Flat R W).ShapeCasts (Heads R H))
    (j : (Heads R H).Idx) :
    shapeCast (Heads R H) x h j = x (ix2 (j 0) (⟨(j 1).val * 128 + (j 2).val, by
      have h1 : (j 1).val < H := (j 1).isLt
      have h2 : (j 2).val < 128 := (j 2).isLt
      omega⟩ : Fin W)) := by
  refine shapeCast_apply x h j _ ?_
  rw [Shape.rowMajor_val_two, Shape.rowMajor_val_three]
  show (j 0).val * W + ((j 1).val * 128 + (j 2).val) = ((j 0).val * H + (j 1).val) * 128 + (j 2).val
  have e : (j 0).val * W = (j 0).val * H * 128 := by rw [hW, Nat.mul_assoc]
  omega

/-- [R, H, 128] flattened to [R, W]: entry (r, col) is entry (r, col / 128, col mod 128). -/
theorem flat_apply (hW : W = H * 128) (v : (Heads R H).Idx → α) (h : (Heads R H).ShapeCasts (Flat R W))
    (y : (Flat R W).Idx) :
    shapeCast (Flat R W) v h y = v (ix3 (y 0) (⟨(y 1).val / 128, by
      have h1 : (y 1).val < W := (y 1).isLt
      omega⟩ : Fin H) (⟨(y 1).val % 128, Nat.mod_lt _ (by decide)⟩ : Fin 128)) := by
  refine shapeCast_apply v h y _ ?_
  rw [Shape.rowMajor_val_two, Shape.rowMajor_val_three]
  show ((y 0).val * H + (y 1).val / 128) * 128 + (y 1).val % 128 = (y 0).val * W + (y 1).val
  have e : (y 0).val * W = (y 0).val * H * 128 := by rw [hW, Nat.mul_assoc]
  omega

/-- The first half of every head: entry (r, h, d) of the slice at offset 0 is entry (r, h, d). -/
theorem lowHalf_apply (v : (Heads R H).Idx → α) (h : (Heads R H).Slices ![0, 0, 0] (Halves R H))
    (j : (Halves R H).Idx) :
    extractStridedSlice (Halves R H) ![0, 0, 0] v h j = v (ix3 (j 0) (j 1) (⟨(j 2).val, by
      have h2 : (j 2).val < 64 := (j 2).isLt
      omega⟩ : Fin 128)) :=
  extractStridedSlice_apply ![0, 0, 0] v h j _ (fun a => match a with
    | ⟨0, _⟩ => by show (j 0).val = 0 + (j 0).val; omega
    | ⟨1, _⟩ => by show (j 1).val = 0 + (j 1).val; omega
    | ⟨2, _⟩ => by show (j 2).val = 0 + (j 2).val; omega)

/-- The second half of every head: entry (r, h, d) of the slice at offset 64 is entry (r, h, 64 + d). -/
theorem highHalf_apply (v : (Heads R H).Idx → α) (h : (Heads R H).Slices ![0, 0, 64] (Halves R H))
    (j : (Halves R H).Idx) :
    extractStridedSlice (Halves R H) ![0, 0, 64] v h j = v (ix3 (j 0) (j 1) (⟨64 + (j 2).val, by
      have h2 : (j 2).val < 64 := (j 2).isLt
      omega⟩ : Fin 128)) :=
  extractStridedSlice_apply ![0, 0, 64] v h j _ (fun a => match a with
    | ⟨0, _⟩ => by show (j 0).val = 0 + (j 0).val; omega
    | ⟨1, _⟩ => by show (j 1).val = 0 + (j 1).val; omega
    | ⟨2, _⟩ => by show 64 + (j 2).val = 64 + (j 2).val; omega)

end Reads

/-- [R, H, 0]: the empty tail a head of exactly 128 rotated columns leaves. -/
abbrev Tail (R H : Nat) : Shape := ⟨3, ![R, H, 0]⟩

section Spread

variable {α : Type} {R H : Nat}

/-- The factors given a unit axis and repeated over the heads (reshape [R, 64] to itself, to [R, 1, 64], then a
    broadcast to [R, H, 64]): entry (r, h, d) is factor (r, d). -/
theorem spread_apply (c : (Rows R).Idx → α) (h1 : (Rows R).ShapeCasts (Rows R)) (h2 : (Rows R).ShapeCasts (RowsUnit R))
    (h3 : (RowsUnit R).Broadcasts (Halves R H)) (j : (Halves R H).Idx) :
    broadcastTo (Halves R H) (shapeCast (RowsUnit R) (shapeCast (Rows R) c h1) h2) h3 j = c (ix2 (j 0) (j 2)) := by
  rw [shapeCast_self]
  rw [broadcastTo_apply _ h3 j (ix3 (j 0) (⟨0, Nat.one_pos⟩ : Fin 1) (j 2)) (fun a => match a with
    | ⟨0, _⟩ => by
        show (j 0).val = if R = 1 then 0 else (j 0).val
        have h0 : (j 0).val < R := (j 0).isLt
        split <;> omega
    | ⟨1, _⟩ => by show 0 = if (1 : Nat) = 1 then 0 else (j 1).val; rw [if_pos rfl]
    | ⟨2, _⟩ => by show (j 2).val = if (64 : Nat) = 1 then 0 else (j 2).val; rw [if_neg (by decide)])]
  refine shapeCast_apply c h2 _ _ ?_
  rw [Shape.rowMajor_val_two, Shape.rowMajor_val_three]
  show (j 0).val * 64 + (j 2).val = ((j 0).val * 1 + 0) * 64 + (j 2).val
  omega

/-- The same spreading spelt as two broadcasts along named axes ([R, 64] to [R, 1, 64] on axes 0 and 2, then to
    [R, H, 64] on all three): entry (r, h, d) is factor (r, d). -/
theorem spreadInDim_apply (c : (Rows R).Idx → α) (h1 : (Rows R).BroadcastsInDim (RowsUnit R) ![0, 2])
    (h2 : (RowsUnit R).BroadcastsInDim (Halves R H) ![0, 1, 2]) (j : (Halves R H).Idx) :
    broadcastInDim (Halves R H) ![0, 1, 2] h2 (broadcastInDim (RowsUnit R) ![0, 2] h1 c) j = c (ix2 (j 0) (j 2)) :=
  (broadcastInDim_apply _ h2 _ j (ix3 (j 0) (⟨0, Nat.one_pos⟩ : Fin 1) (j 2)) (fun a => match a with
    | ⟨0, _⟩ => by
        show (j 0).val = if R = 1 then 0 else (j 0).val
        have h0 : (j 0).val < R := (j 0).isLt
        split <;> omega
    | ⟨1, _⟩ => by show 0 = if (1 : Nat) = 1 then 0 else (j 1).val; rw [if_pos rfl]
    | ⟨2, _⟩ => by show (j 2).val = if (64 : Nat) = 1 then 0 else (j 2).val; rw [if_neg (by decide)])).trans
  (broadcastInDim_apply _ h1 c _ (ix2 (j 0) (j 2)) (fun a => match a with
    | ⟨0, _⟩ => by
        show (j 0).val = if R = 1 then 0 else (j 0).val
        have h0 : (j 0).val < R := (j 0).isLt
        split <;> omega
    | ⟨1, _⟩ => by show (j 2).val = if (64 : Nat) = 1 then 0 else (j 2).val; rw [if_neg (by decide)]))

/-- Two halves joined along the last axis, read in the first half: entry (r, h, d), d < 64, is the first piece's. -/
theorem join_low (a b : (Halves R H).Idx → α) (h : Shape.Concatenates [Halves R H, Halves R H] (Heads R H) 2)
    (j : (Heads R H).Idx) (hj : (j 2).val < 64) :
    concatenate (Heads R H) 2 [⟨Halves R H, a⟩, ⟨Halves R H, b⟩] h j = a (ix3 (j 0) (j 1) (⟨(j 2).val, hj⟩ : Fin 64)) :=
  concatenate_pair_apply_left 2 a b h j rfl _ (fun c => match c with
    | ⟨0, _⟩ => rfl
    | ⟨1, _⟩ => rfl
    | ⟨2, _⟩ => rfl)

/-- Two halves joined along the last axis, read in the second half: entry (r, h, d), 64 ≤ d, is the second piece's
    at d - 64. -/
theorem join_high (a b : (Halves R H).Idx → α) (h : Shape.Concatenates [Halves R H, Halves R H] (Heads R H) 2)
    (j : (Heads R H).Idx) (hj : 64 ≤ (j 2).val) :
    concatenate (Heads R H) 2 [⟨Halves R H, a⟩, ⟨Halves R H, b⟩] h j = b (ix3 (j 0) (j 1) (⟨(j 2).val - 64, by
      have h2 : (j 2).val < 128 := (j 2).isLt
      omega⟩ : Fin 64)) :=
  concatenate_pair_apply_right 2 a b h j rfl rfl _ (fun c => match c with
    | ⟨0, _⟩ => fun _ => rfl
    | ⟨1, _⟩ => fun _ => rfl
    | ⟨2, _⟩ => fun hc => absurd rfl hc)
    (by show (j 2).val - 64 + 64 = (j 2).val; omega)

/-- The same join with an empty third piece, read in the first half. -/
theorem join3_low (a b : (Halves R H).Idx → α) (e : (Tail R H).Idx → α)
    (h : Shape.Concatenates [Halves R H, Halves R H, Tail R H] (Heads R H) 2)
    (j : (Heads R H).Idx) (hj : (j 2).val < 64) :
    concatenate (Heads R H) 2 [⟨Halves R H, a⟩, ⟨Halves R H, b⟩, ⟨Tail R H, e⟩] h j
      = a (ix3 (j 0) (j 1) (⟨(j 2).val, hj⟩ : Fin 64)) :=
  concatenate_apply_piece 2 [⟨Halves R H, a⟩, ⟨Halves R H, b⟩, ⟨Tail R H, e⟩] h j 0 (by show 0 < 3; omega) (Halves R H) a rfl rfl 0 rfl _ (fun c => match c with
    | ⟨0, _⟩ => fun _ => rfl
    | ⟨1, _⟩ => fun _ => rfl
    | ⟨2, _⟩ => fun hc => absurd rfl hc)
    (by show 0 + (j 2).val = (j 2).val; omega)

/-- The same join with an empty third piece, read in the second half. -/
theorem join3_high (a b : (Halves R H).Idx → α) (e : (Tail R H).Idx → α)
    (h : Shape.Concatenates [Halves R H, Halves R H, Tail R H] (Heads R H) 2)
    (j : (Heads R H).Idx) (hj : 64 ≤ (j 2).val) :
    concatenate (Heads R H) 2 [⟨Halves R H, a⟩, ⟨Halves R H, b⟩, ⟨Tail R H, e⟩] h j
      = b (ix3 (j 0) (j 1) (⟨(j 2).val - 64, by
        have h2 : (j 2).val < 128 := (j 2).isLt
        omega⟩ : Fin 64)) :=
  concatenate_apply_piece 2 [⟨Halves R H, a⟩, ⟨Halves R H, b⟩, ⟨Tail R H, e⟩] h j 1 (by show 1 < 3; omega) (Halves R H) b rfl rfl 64 rfl _ (fun c => match c with
    | ⟨0, _⟩ => fun _ => rfl
    | ⟨1, _⟩ => fun _ => rfl
    | ⟨2, _⟩ => fun hc => absurd rfl hc)
    (by show 64 + ((j 2).val - 64) = (j 2).val; omega)

end Spread

/-! ## The two operation chains compute the function

Both programs split x into heads, slice the two halves of every head, spread the factors over the heads, form
lo * c - hi * s and hi * c + lo * s, join the two along the last axis and flatten. The core lemma takes the joined
vector abstractly (whatever joins it: two pieces, or two and an empty tail) and the spread factors abstractly
(whatever spreads them); the two theorems after it instantiate the block body's spelling and the host's. -/

section Chains

variable {F : FTy → Type} [FloatOps F] {φ : FTy} {R H W : Nat}

/-- Two indices of a rank-2 array with equal coordinates are equal. -/
theorem idx2_ext {n0 n1 : Nat} (i i' : (⟨2, ![n0, n1]⟩ : Shape).Idx) (h0 : (i 0).val = (i' 0).val)
    (h1 : (i 1).val = (i' 1).val) : i = i' :=
  funext fun a => match a with
    | ⟨0, _⟩ => Fin.ext h0
    | ⟨1, _⟩ => Fin.ext h1

/-- The first halves of the heads of x. -/
abbrev lowOf (x : FVec F (Flat R W) φ) (hh : (Flat R W).ShapeCasts (Heads R H))
    (hs : (Heads R H).Slices ![0, 0, 0] (Halves R H)) : FVec F (Halves R H) φ :=
  extractStridedSlice (Halves R H) ![0, 0, 0] (shapeCast (Heads R H) x hh) hs

/-- The second halves of the heads of x. -/
abbrev highOf (x : FVec F (Flat R W) φ) (hh : (Flat R W).ShapeCasts (Heads R H))
    (hs : (Heads R H).Slices ![0, 0, 64] (Halves R H)) : FVec F (Halves R H) φ :=
  extractStridedSlice (Halves R H) ![0, 0, 64] (shapeCast (Heads R H) x hh) hs

/-- The first half of head h of x at lane d is x (r, h * 128 + d). -/
theorem lowOf_apply (hW : W = H * 128) (x : FVec F (Flat R W) φ) (hh : (Flat R W).ShapeCasts (Heads R H))
    (hs : (Heads R H).Slices ![0, 0, 0] (Halves R H)) (j : (Halves R H).Idx) :
    lowOf x hh hs j = x (ix2 (j 0) (⟨(j 1).val * 128 + (j 2).val, by
      have h1 : (j 1).val < H := (j 1).isLt
      have h2 : (j 2).val < 64 := (j 2).isLt
      omega⟩ : Fin W)) :=
  (lowHalf_apply _ hs j).trans (heads_apply hW x hh _)

/-- The second half of head h of x at lane d is x (r, h * 128 + 64 + d). -/
theorem highOf_apply (hW : W = H * 128) (x : FVec F (Flat R W) φ) (hh : (Flat R W).ShapeCasts (Heads R H))
    (hs : (Heads R H).Slices ![0, 0, 64] (Halves R H)) (j : (Halves R H).Idx) :
    highOf x hh hs j = x (ix2 (j 0) (⟨(j 1).val * 128 + (64 + (j 2).val), by
      have h1 : (j 1).val < H := (j 1).isLt
      have h2 : (j 2).val < 64 := (j 2).isLt
      omega⟩ : Fin W)) :=
  (highHalf_apply _ hs j).trans (heads_apply hW x hh _)

/-- THE CORE: a vector over [R, H, 128] that in the first half of every head is lo * c - hi * s and in the second
    hi * c + lo * s (lo, hi the halves of x's heads; c, s the factors spread over the heads), flattened to [R, W], is
    rotate-half of x. Entry (r, col) sits in head col / 128 at lane col mod 128: in the first half lo there is x (r, col)
    and hi its partner 64 further; in the second hi there is x (r, col) and lo its partner 64 back. -/
theorem flat_join_eq (hW : W = H * 128) (x : FVec F (Flat R W) φ) (C S : FVec F (Rows R) φ)
    (hh : (Flat R W).ShapeCasts (Heads R H)) (hs0 : (Heads R H).Slices ![0, 0, 0] (Halves R H))
    (hs64 : (Heads R H).Slices ![0, 0, 64] (Halves R H))
    (cb sb : FVec F (Halves R H) φ)
    (hcb : ∀ j : (Halves R H).Idx, cb j = C (ix2 (j 0) (j 2))) (hsb : ∀ j : (Halves R H).Idx, sb j = S (ix2 (j 0) (j 2)))
    (J : FVec F (Heads R H) φ)
    (hJlo : ∀ (j : (Heads R H).Idx) (hj : (j 2).val < 64), J j =
      subf (mulf (lowOf x hh hs0) cb) (mulf (highOf x hh hs64) sb) (ix3 (j 0) (j 1) (⟨(j 2).val, hj⟩ : Fin 64)))
    (hJhi : ∀ (j : (Heads R H).Idx) (hj : 64 ≤ (j 2).val), J j =
      addf (mulf (highOf x hh hs64) cb) (mulf (lowOf x hh hs0) sb) (ix3 (j 0) (j 1) (⟨(j 2).val - 64, by
        have h2 : (j 2).val < 128 := (j 2).isLt
        omega⟩ : Fin 64)))
    (hf : (Heads R H).ShapeCasts (Flat R W)) :
    shapeCast (Flat R W) J hf = rotateHalf x C S := by
  funext y
  have hy1 : (y 1).val < W := (y 1).isLt
  rw [flat_apply hW]
  unfold rotateHalf
  by_cases hy : (y 1).val % 128 < 64
  · rw [if_pos hy, hJlo _ hy]
    show FloatOps.subf (FloatOps.mulf (lowOf x hh hs0 _) (cb _)) (FloatOps.mulf (highOf x hh hs64 _) (sb _)) = _
    rw [hcb, hsb, lowOf_apply hW, highOf_apply hW]
    refine congrArg₂ _ (congrArg₂ _ (congrArg x ?_) (congrArg C ?_)) (congrArg₂ _ (congrArg x ?_) (congrArg S ?_))
    · exact idx2_ext _ _ rfl (by show (y 1).val / 128 * 128 + (y 1).val % 128 = (y 1).val; omega)
    · exact idx2_ext _ _ rfl (by show (y 1).val % 128 = (y 1).val % 64; omega)
    · refine idx2_ext _ _ rfl ?_
      show (y 1).val / 128 * 128 + (64 + (y 1).val % 128)
        = if partner (y 1).val < W then partner (y 1).val else (y 1).val
      rw [if_pos (partner_lt hW hy1), partner_of_lt hy]; omega
    · exact idx2_ext _ _ rfl (by show (y 1).val % 128 = (y 1).val % 64; omega)
  · have hy' : 64 ≤ (y 1).val % 128 := Nat.le_of_not_lt hy
    rw [if_neg hy, hJhi _ hy']
    show FloatOps.addf (FloatOps.mulf (highOf x hh hs64 _) (cb _)) (FloatOps.mulf (lowOf x hh hs0 _) (sb _)) = _
    rw [hcb, hsb, lowOf_apply hW, highOf_apply hW]
    refine congrArg₂ _ (congrArg₂ _ (congrArg x ?_) (congrArg C ?_)) (congrArg₂ _ (congrArg x ?_) (congrArg S ?_))
    · exact idx2_ext _ _ rfl (by
        show (y 1).val / 128 * 128 + (64 + ((y 1).val % 128 - 64)) = (y 1).val; omega)
    · exact idx2_ext _ _ rfl (by show (y 1).val % 128 - 64 = (y 1).val % 64; omega)
    · refine idx2_ext _ _ rfl ?_
      show (y 1).val / 128 * 128 + ((y 1).val % 128 - 64)
        = if partner (y 1).val < W then partner (y 1).val else (y 1).val
      rw [if_pos (partner_lt hW hy1), partner_of_ge hy']; omega
    · exact idx2_ext _ _ rfl (by show (y 1).val % 128 - 64 = (y 1).val % 64; omega)

/-- The factors spread over the heads, in the block body's spelling. -/
abbrev spread (c : FVec F (Rows R) φ) (h1 : (Rows R).ShapeCasts (Rows R)) (h2 : (Rows R).ShapeCasts (RowsUnit R))
    (h3 : (RowsUnit R).Broadcasts (Halves R H)) : FVec F (Halves R H) φ :=
  broadcastTo (Halves R H) (shapeCast (RowsUnit R) (shapeCast (Rows R) c h1) h2) h3

/-- The factors spread over the heads, in the host's spelling. -/
abbrev spreadInDim (c : FVec F (Rows R) φ) (b1 : (Rows R).BroadcastsInDim (RowsUnit R) ![0, 2])
    (b2 : (RowsUnit R).BroadcastsInDim (Halves R H) ![0, 1, 2]) : FVec F (Halves R H) φ :=
  broadcastInDim (Halves R H) ![0, 1, 2] b2 (broadcastInDim (RowsUnit R) ![0, 2] b1 c)

/-- THE BLOCK BODY'S CHAIN (vector operations on one block of rows): heads, halves, factors given a unit axis and
    broadcast, the two products' difference and sum joined as two pieces, flattened — rotate-half of the block. -/
theorem vector_chain (hW : W = H * 128) (x : FVec F (Flat R W) φ) (c s : FVec F (Rows R) φ)
    (hh : (Flat R W).ShapeCasts (Heads R H)) (hs0 : (Heads R H).Slices ![0, 0, 0] (Halves R H))
    (hs64 : (Heads R H).Slices ![0, 0, 64] (Halves R H))
    (h1 : (Rows R).ShapeCasts (Rows R)) (h2 : (Rows R).ShapeCasts (RowsUnit R)) (h3 : (RowsUnit R).Broadcasts (Halves R H))
    (hc : Shape.Concatenates [Halves R H, Halves R H] (Heads R H) 2) (hf : (Heads R H).ShapeCasts (Flat R W)) :
    shapeCast (Flat R W)
      (concatenate (Heads R H) 2
        [⟨Halves R H, subf (mulf (lowOf x hh hs0) (spread c h1 h2 h3)) (mulf (highOf x hh hs64) (spread s h1 h2 h3))⟩,
         ⟨Halves R H, addf (mulf (highOf x hh hs64) (spread c h1 h2 h3)) (mulf (lowOf x hh hs0) (spread s h1 h2 h3))⟩]
        hc) hf
      = rotateHalf x c s :=
  flat_join_eq hW x c s hh hs0 hs64 _ _ (spread_apply c h1 h2 h3) (spread_apply s h1 h2 h3) _
    (fun j hj => join_low _ _ hc j hj) (fun j hj => join_high _ _ hc j hj) hf

/-- THE HOST'S CHAIN (whole-array operations): the same with the factors broadcast along named axes and the join
    taking a third, empty piece (the columns of a head past the rotated 128: none) — rotate-half of the array. -/
theorem host_chain (hW : W = H * 128) (x : FVec F (Flat R W) φ) (C S : FVec F (Rows R) φ)
    (hh : (Flat R W).ShapeCasts (Heads R H)) (hs0 : (Heads R H).Slices ![0, 0, 0] (Halves R H))
    (hs64 : (Heads R H).Slices ![0, 0, 64] (Halves R H)) (hs128 : (Heads R H).Slices ![0, 0, 128] (Tail R H))
    (b1 : (Rows R).BroadcastsInDim (RowsUnit R) ![0, 2]) (b2 : (RowsUnit R).BroadcastsInDim (Halves R H) ![0, 1, 2])
    (hc : Shape.Concatenates [Halves R H, Halves R H, Tail R H] (Heads R H) 2)
    (hf : (Heads R H).ShapeCasts (Flat R W)) :
    shapeCast (Flat R W)
      (concatenate (Heads R H) 2
        [⟨Halves R H, subf (mulf (lowOf x hh hs0) (spreadInDim C b1 b2)) (mulf (highOf x hh hs64) (spreadInDim S b1 b2))⟩,
         ⟨Halves R H, addf (mulf (highOf x hh hs64) (spreadInDim C b1 b2)) (mulf (lowOf x hh hs0) (spreadInDim S b1 b2))⟩,
         ⟨Tail R H, extractStridedSlice (Tail R H) ![0, 0, 128] (shapeCast (Heads R H) x hh) hs128⟩]
        hc) hf
      = rotateHalf x C S :=
  flat_join_eq hW x C S hh hs0 hs64 _ _ (spreadInDim_apply C b1 b2) (spreadInDim_apply S b1 b2) _
    (fun j hj => join3_low _ _ _ hc j hj) (fun j hj => join3_high _ _ _ hc j hj) hf

end Chains

/-! ## Row-locality

An entry of rotate-half reads its own row only. So rotate-half of any selection of rows (a block of consecutive
rows, say) is that selection of rotate-half of the whole array: if x', C', S' at row (y 0) are x, C, S at row (i 0),
column by column, then the rotated entries at y and at i, in the same column, agree. -/

section RowLocal

variable {F : FTy → Type} [FloatOps F] {φ : FTy} {R R' W : Nat}

theorem rotateHalf_rows (x' : FVec F (Flat R' W) φ) (C' S' : FVec F (Rows R') φ)
    (x : FVec F (Flat R W) φ) (C S : FVec F (Rows R) φ) (y : (Flat R' W).Idx) (i : (Flat R W).Idx)
    (hcol : (i 1).val = (y 1).val)
    (hx : ∀ col : Fin W, x' (ix2 (y 0) col) = x (ix2 (i 0) col))
    (hC : ∀ l : Fin 64, C' (ix2 (y 0) l) = C (ix2 (i 0) l))
    (hS : ∀ l : Fin 64, S' (ix2 (y 0) l) = S (ix2 (i 0) l)) :
    rotateHalf x' C' S' y = rotateHalf x C S i := by
  have h1 : x' y = x i :=
    ((congrArg x' (eq_ix2 y)).trans (hx (y 1))).trans (congrArg x (idx2_ext _ _ rfl hcol.symm))
  have h2 : x' (partnerIdx y) = x (partnerIdx i) := (hx _).trans (congrArg x (idx2_ext _ _ rfl (by
    show (if partner (y 1).val < W then partner (y 1).val else (y 1).val)
      = (if partner (i 1).val < W then partner (i 1).val else (i 1).val)
    rw [hcol])))
  have h3 : C' (laneIdx y) = C (laneIdx i) := (hC _).trans (congrArg C (idx2_ext _ _ rfl (by
    show (y 1).val % 64 = (i 1).val % 64
    rw [hcol])))
  have h4 : S' (laneIdx y) = S (laneIdx i) := (hS _).trans (congrArg S (idx2_ext _ _ rfl (by
    show (y 1).val % 64 = (i 1).val % 64
    rw [hcol])))
  unfold rotateHalf
  rw [h1, h2, h3, h4, hcol]

end RowLocal

end RotateHalf

end
-- ==== Proof.BlockBody.lean ====
/-
  What the kernel body stores, per block: each of the two kernels loads one block of 256 rows of its array (q: 32 heads,
  4096 columns; k: 8 heads, 1024 columns) and the same 256 rows of the two factor arrays, and stores rotate-half of
  the block. The body's stored value is the vector chain of LibRotateHalf at R = 256.
-/
import proofs.«179388_j67293547594175_1_alg».proof.Proof.Gen.KernelIdeal.Skeleton
import proofs.«179388_j67293547594175_1_alg».proof.Proof.LibRotateHalf

noncomputable section

namespace Cert.KernelIdeal.Rope

open Idealize.ShloMosaic Cert.KernelIdeal Cert.KernelIdeal.Gen RotateHalf

variable {F : FTy → Type} [FloatOps F]

/-- The q kernel's stored block is rotate-half of its loaded block of 256 rows and 32 heads. -/
theorem stored_q (x : Vec F S256x4096 .f32) (c s : Vec F S256x64 .f32) :
    k0_pay1 x c s = rotateHalf (R := 256) (W := 4096) x c s :=
  vector_chain (H := 32) rfl x c s _ _ _ _ _ _ _ _

/-- The k kernel's stored block is rotate-half of its loaded block of 256 rows and 8 heads. -/
theorem stored_k (x : Vec F S256x1024 .f32) (c s : Vec F S256x64 .f32) :
    k1_pay1 x c s = rotateHalf (R := 256) (W := 1024) x c s :=
  vector_chain (H := 8) rfl x c s _ _ _ _ _ _ _ _

end Cert.KernelIdeal.Rope

end
-- ==== Proof.KernelValue.lean ====
/-
  From blocks to arrays. Each region walks 64 grid points; at point t every window's block is rows 256 t … 256 t + 255
  of its array (all columns), the body stores rotate-half of the three loaded blocks (BlockBody), and the block is
  written back. Rotate-half reads one row at a time, so the block written back at t is block t of rotate-half of the
  whole arrays as the region finds them; the 64 blocks tile the 16384 rows; hence each region's result array ends
  holding rotate-half of its first array by its second and third. Stated for ANY entry contents V of the core's
  buffers, and used at each region's own.
-/
import proofs.«179388_j67293547594175_1_alg».proof.Proof.Gen.KernelIdeal.Frame
import proofs.«179388_j67293547594175_1_alg».proof.Proof.BlockBody
import Idealize.ShloMosaic.Lib.Pipeline.Value

set_option maxRecDepth 16384

noncomputable section

namespace Cert.KernelIdeal.Rope

open Idealize.ShloMosaic Idealize.ShloMosaic.TcCoe Idealize.SL.Sem Idealize.ShloMosaic.ValueIdx
open Idealize.ShloMosaic.Pipeline (Dat)
open Cert.KernelIdeal Cert.KernelIdeal.Gen RotateHalf

variable {F : FTy → Type} [FloatOps F]
variable (V : (c : Dev nD) → (b : Ref sig .tc) → Buf (Elt F) ((c : Thread nD τ).loc b))

/-- The zero offsets of a whole-block access, however they are spelt. -/
theorem zeros2 : (![0, 0] : Fin 2 → Nat) = fun _ => 0 :=
  funext fun a => match a with
    | ⟨0, _⟩ => rfl
    | ⟨1, _⟩ => rfl

/-! ## The q region (pipeline 0): 64 points, point t owning rows 256 t … 256 t + 255 of every window -/

/-- The printed index maps, decided over the grid: every window's block index at point t is (t, 0). -/
theorem blocks_q : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of rotate-half of the arrays as the region finds them: the stored block is
    rotate-half of the three loaded blocks, the loaded blocks are the same 256 rows of the three arrays, and
    rotate-half is row-local. -/
theorem flushed_q (c : Dev nD) (t : Fin cfg0.N) :
    (dat0 V c).flushed 3 t = ((cfg0.win 3).blk t).view.read (Elt F)
      (rotateHalf (R := 16384) (W := 4096) (φ := .f32) (V c main_arg0) (V c main_v15) (V c main_v23)) := by
  show (cfg0.win 3).cut (grid0.coords t) ((dat0 V c).after 3 t) = _
  rw [after0_3]
  unfold out0_3
  rw [View.canon_unit_zero zeros2]
  simp only [View.ld_unit_zero (S := S256x4096) zeros2, View.ld_unit_zero (S := S256x64) zeros2]
  rw [stored_q]
  obtain ⟨a0, a1, b0, b1, c0, c1, d0, d1⟩ := blocks_q t
  funext y
  show rotateHalf (R := 256) (W := 4096) (φ := .f32) (iblk0 V c 0 t) (iblk0 V c 1 t) (iblk0 V c 2 t) y
    = rotateHalf (R := 16384) (W := 4096) (φ := .f32) (V c main_arg0) (V c main_v15) (V c main_v23)
        (((cfg0.win 3).blk t).view.emb y)
  refine rotateHalf_rows _ _ _ _ _ _ y _ ?_ ?_ ?_ ?_
  · show win0_3.index t (1 : Fin 2) * 4096 + 1 * (y 1).val = (y 1).val
    rw [d1]; omega
  · intro col
    show V c main_arg0 (((cfg0.win 0).blk t).view.emb (ix2 (y 0) col))
      = V c main_arg0 (ix2 ((((cfg0.win 3).blk t).view.emb y) 0) col)
    refine congrArg (V c main_arg0) (funext fun a => Fin.ext ?_)
    match a with
    | ⟨0, _⟩ =>
      show win0_0.index t (0 : Fin 2) * 256 + 1 * (y 0).val = win0_3.index t (0 : Fin 2) * 256 + 1 * (y 0).val
      rw [a0, d0]
    | ⟨1, _⟩ =>
      show win0_0.index t (1 : Fin 2) * 4096 + 1 * col.val = col.val
      rw [a1]; omega
  · intro l
    show V c main_v15 (((cfg0.win 1).blk t).view.emb (ix2 (y 0) l))
      = V c main_v15 (ix2 ((((cfg0.win 3).blk t).view.emb y) 0) l)
    refine congrArg (V c main_v15) (funext fun a => Fin.ext ?_)
    match a with
    | ⟨0, _⟩ =>
      show win0_1.index t (0 : Fin 2) * 256 + 1 * (y 0).val = win0_3.index t (0 : Fin 2) * 256 + 1 * (y 0).val
      rw [b0, d0]
    | ⟨1, _⟩ =>
      show win0_1.index t (1 : Fin 2) * 64 + 1 * l.val = l.val
      rw [b1]; omega
  · intro l
    show V c main_v23 (((cfg0.win 2).blk t).view.emb (ix2 (y 0) l))
      = V c main_v23 (ix2 ((((cfg0.win 3).blk t).view.emb y) 0) l)
    refine congrArg (V c main_v23) (funext fun a => Fin.ext ?_)
    match a with
    | ⟨0, _⟩ =>
      show win0_2.index t (0 : Fin 2) * 256 + 1 * (y 0).val = win0_3.index t (0 : Fin 2) * 256 + 1 * (y 0).val
      rw [c0, d0]
    | ⟨1, _⟩ =>
      show win0_2.index t (1 : Fin 2) * 64 + 1 * l.val = l.val
      rw [c1]; omega

/-- An index of the result array is in point t's block iff each coordinate is in the block's range on its axis. -/
theorem mem_block_q (t : Fin cfg0.N) (i : S16384x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v24).slice (win0_3.rect t)).set ↔ _
  rw [View.set_slice_whole, Rect.mem_set_unit]
  exact Iff.rfl

/-- The 64 blocks cover the result array: row r is in the block of point r / 256. -/
theorem cover_q (i : S16384x4096.Idx) :
    ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 64 := N_0
  have ht : (i 0).val / 256 < cfg0.N := by rw [hN]; omega
  obtain ⟨-, -, -, -, -, -, d0, d1⟩ := blocks_q ⟨(i 0).val / 256, ht⟩
  refine ⟨⟨(i 0).val / 256, ht⟩, flush0_3 _, ?_⟩
  rw [mem_block_q]
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [d0]
    show (i 0).val / 256 * 256 ≤ (i 0).val ∧ (i 0).val < (i 0).val / 256 * 256 + 256
    omega
  | ⟨1, _⟩ =>
    show win0_3.index ⟨(i 0).val / 256, ht⟩ (1 : Fin 2) * 4096 ≤ (i 1).val
      ∧ (i 1).val < win0_3.index ⟨(i 0).val / 256, ht⟩ (1 : Fin 2) * 4096 + 4096
    rw [d1]; omega

/-- THE q RESULT ARRAY after the region: rotate-half of the region's first array by its second and third. -/
theorem final_q (c : Dev nD) :
    (dat0 V c).arrAt 3 cfg0.N
      = rotateHalf (R := 16384) (W := 4096) (φ := .f32) (V c main_arg0) (V c main_v15) (V c main_v23) :=
  (dat0 V c).arrAt_eq_of_cover 3 _ (fun t _ => flushed_q V c t) cover_q

/-! ## The k region (pipeline 1): 64 points, point t owning rows 256 t … 256 t + 255 of every window -/

/-- The printed index maps, decided over the grid: every window's block index at point t is (t, 0). -/
theorem blocks_k : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of rotate-half of the arrays as the region finds them: the stored block is
    rotate-half of the three loaded blocks, the loaded blocks are the same 256 rows of the three arrays, and
    rotate-half is row-local. -/
theorem flushed_k (c : Dev nD) (t : Fin cfg1.N) :
    (dat1 V c).flushed 3 t = ((cfg1.win 3).blk t).view.read (Elt F)
      (rotateHalf (R := 16384) (W := 1024) (φ := .f32) (V c main_arg1) (V c main_v15) (V c main_v23)) := by
  show (cfg1.win 3).cut (grid1.coords t) ((dat1 V c).after 3 t) = _
  rw [after1_3]
  unfold out1_3
  rw [View.canon_unit_zero zeros2]
  simp only [View.ld_unit_zero (S := S256x1024) zeros2, View.ld_unit_zero (S := S256x64) zeros2]
  rw [stored_k]
  obtain ⟨a0, a1, b0, b1, c0, c1, d0, d1⟩ := blocks_k t
  funext y
  show rotateHalf (R := 256) (W := 1024) (φ := .f32) (iblk1 V c 0 t) (iblk1 V c 1 t) (iblk1 V c 2 t) y
    = rotateHalf (R := 16384) (W := 1024) (φ := .f32) (V c main_arg1) (V c main_v15) (V c main_v23)
        (((cfg1.win 3).blk t).view.emb y)
  refine rotateHalf_rows _ _ _ _ _ _ y _ ?_ ?_ ?_ ?_
  · show win1_3.index t (1 : Fin 2) * 1024 + 1 * (y 1).val = (y 1).val
    rw [d1]; omega
  · intro col
    show V c main_arg1 (((cfg1.win 0).blk t).view.emb (ix2 (y 0) col))
      = V c main_arg1 (ix2 ((((cfg1.win 3).blk t).view.emb y) 0) col)
    refine congrArg (V c main_arg1) (funext fun a => Fin.ext ?_)
    match a with
    | ⟨0, _⟩ =>
      show win1_0.index t (0 : Fin 2) * 256 + 1 * (y 0).val = win1_3.index t (0 : Fin 2) * 256 + 1 * (y 0).val
      rw [a0, d0]
    | ⟨1, _⟩ =>
      show win1_0.index t (1 : Fin 2) * 1024 + 1 * col.val = col.val
      rw [a1]; omega
  · intro l
    show V c main_v15 (((cfg1.win 1).blk t).view.emb (ix2 (y 0) l))
      = V c main_v15 (ix2 ((((cfg1.win 3).blk t).view.emb y) 0) l)
    refine congrArg (V c main_v15) (funext fun a => Fin.ext ?_)
    match a with
    | ⟨0, _⟩ =>
      show win1_1.index t (0 : Fin 2) * 256 + 1 * (y 0).val = win1_3.index t (0 : Fin 2) * 256 + 1 * (y 0).val
      rw [b0, d0]
    | ⟨1, _⟩ =>
      show win1_1.index t (1 : Fin 2) * 64 + 1 * l.val = l.val
      rw [b1]; omega
  · intro l
    show V c main_v23 (((cfg1.win 2).blk t).view.emb (ix2 (y 0) l))
      = V c main_v23 (ix2 ((((cfg1.win 3).blk t).view.emb y) 0) l)
    refine congrArg (V c main_v23) (funext fun a => Fin.ext ?_)
    match a with
    | ⟨0, _⟩ =>
      show win1_2.index t (0 : Fin 2) * 256 + 1 * (y 0).val = win1_3.index t (0 : Fin 2) * 256 + 1 * (y 0).val
      rw [c0, d0]
    | ⟨1, _⟩ =>
      show win1_2.index t (1 : Fin 2) * 64 + 1 * l.val = l.val
      rw [c1]; omega

/-- An index of the result array is in point t's block iff each coordinate is in the block's range on its axis. -/
theorem mem_block_k (t : Fin cfg1.N) (i : S16384x1024.Idx) :
    i ∈ ((cfg1.win 3).blk t).view.set ↔ ∀ a : Fin 2, win1_3.index t a * S256x1024.size a ≤ (i a).val
      ∧ (i a).val < win1_3.index t a * S256x1024.size a + S256x1024.size a := by
  show i ∈ ((View.whole main_v25).slice (win1_3.rect t)).set ↔ _
  rw [View.set_slice_whole, Rect.mem_set_unit]
  exact Iff.rfl

/-- The 64 blocks cover the result array: row r is in the block of point r / 256. -/
theorem cover_k (i : S16384x1024.Idx) :
    ∃ t : Fin cfg1.N, (cfg1.win 3).flush t = true ∧ i ∈ ((cfg1.win 3).blk t).view.set := by
  have h0 : (i 0).val < 16384 := (i 0).isLt
  have h1 : (i 1).val < 1024 := (i 1).isLt
  have hN : cfg1.N = 64 := N_1
  have ht : (i 0).val / 256 < cfg1.N := by rw [hN]; omega
  obtain ⟨-, -, -, -, -, -, d0, d1⟩ := blocks_k ⟨(i 0).val / 256, ht⟩
  refine ⟨⟨(i 0).val / 256, ht⟩, flush1_3 _, ?_⟩
  rw [mem_block_k]
  intro a
  match a with
  | ⟨0, _⟩ =>
    show win1_3.index ⟨(i 0).val / 256, ht⟩ (0 : Fin 2) * 256 ≤ (i 0).val
      ∧ (i 0).val < win1_3.index ⟨(i 0).val / 256, ht⟩ (0 : Fin 2) * 256 + 256
    rw [d0]
    show (i 0).val / 256 * 256 ≤ (i 0).val ∧ (i 0).val < (i 0).val / 256 * 256 + 256
    omega
  | ⟨1, _⟩ =>
    show win1_3.index ⟨(i 0).val / 256, ht⟩ (1 : Fin 2) * 1024 ≤ (i 1).val
      ∧ (i 1).val < win1_3.index ⟨(i 0).val / 256, ht⟩ (1 : Fin 2) * 1024 + 1024
    rw [d1]; omega

/-- THE k RESULT ARRAY after the region: rotate-half of the region's first array by its second and third. -/
theorem final_k (c : Dev nD) :
    (dat1 V c).arrAt 3 cfg1.N
      = rotateHalf (R := 16384) (W := 1024) (φ := .f32) (V c main_arg1) (V c main_v15) (V c main_v23) :=
  (dat1 V c).arrAt_eq_of_cover 3 _ (fun t _ => flushed_k V c t) cover_k

end Cert.KernelIdeal.Rope

end
-- ==== Proof.KernelResult.lean ====
/-
  The kernel program's two results as functions of its four arguments. The first region is entered with q untouched
  and with the selected cosine and sine rows that the host stretches computed (the reference's own selection, the
  same operations: its stages %15 and %23 of the third and fourth arguments); it leaves its result array at
  rotate-half of q by those rows (KernelValue). The second region finds k untouched and the same two row arrays (the
  first region only read them) and leaves rotate-half of k. Read off the fold of the run's boundaries (KernelRun).
-/
import proofs.«179388_j67293547594175_1_alg».proof.Proof.KernelRun
import proofs.«179388_j67293547594175_1_alg».proof.Proof.KernelValue
import proofs.«179388_j67293547594175_1_alg».proof.Proof.Gen.ReferenceIdeal.Read
import Idealize.ShloMosaic.Lib.StableHlo.Run

set_option maxRecDepth 16384

noncomputable section

namespace Cert.KernelIdeal.Rope

open Idealize.ShloMosaic Idealize.ShloMosaic.TcCoe Idealize.SL.Sem Idealize.ShloMosaic.StableHlo
open Idealize.ShloMosaic.Pipeline (Dat)
open Cert.KernelIdeal Cert.KernelIdeal.Gen RotateHalf

variable {F : FTy → Type} [FloatOps F]
variable (m : (ℓ : Loc nD τ sig) → Buf (Elt F) ℓ) (ρ : Dev nD → PrngReg)

/-! ## What the first region finds -/

/-- q as launched: no host operation writes an argument. -/
theorem entry_q (c : Dev nD) : V6 m ρ c main_arg0 = m ((c : Thread nD τ).loc main_arg0) := by
  show StableHlo.after hostOps0_5 (StableHlo.after hostOps0_4 (StableHlo.after hostOps0_3 (StableHlo.after hostOps0_2
    (StableHlo.after hostOps0_1 (StableHlo.after hostOps0 (W0 m ρ c)))))) (Proc.devRef .tc main_arg0) = _
  after_results

set_option maxHeartbeats 2000000 in  -- thirty-one host operations folded in one pass
/-- The selected cosine rows: the host stretches' select of the three sections of the third argument by the two
    lane masks, which is the reference's stage %15 of that argument (the same operations on the same literals). -/
theorem entry_cos (c : Dev nD) :
    V6 m ρ c main_v15 = Cert.ReferenceIdeal.Read.val_main_v15 (F := F) (m ((c : Thread nD τ).loc main_arg2)) := by
  show StableHlo.after hostOps0_5 (StableHlo.after hostOps0_4 (StableHlo.after hostOps0_3 (StableHlo.after hostOps0_2
    (StableHlo.after hostOps0_1 (StableHlo.after hostOps0 (W0 m ρ c)))))) (Proc.devRef .tc main_v15) = _
  after_results_simp
  rfl

set_option maxHeartbeats 2000000 in  -- thirty-one host operations folded in one pass
/-- The selected sine rows: likewise the reference's stage %23 of the fourth argument. -/
theorem entry_sin (c : Dev nD) :
    V6 m ρ c main_v23 = Cert.ReferenceIdeal.Read.val_main_v23 (F := F) (m ((c : Thread nD τ).loc main_arg3)) := by
  show StableHlo.after hostOps0_5 (StableHlo.after hostOps0_4 (StableHlo.after hostOps0_3 (StableHlo.after hostOps0_2
    (StableHlo.after hostOps0_1 (StableHlo.after hostOps0 (W0 m ρ c)))))) (Proc.devRef .tc main_v23) = _
  after_results_simp
  rfl

/-! ## What the second region finds -/

/-- k as launched: neither a host operation nor the first region writes it. -/
theorem entry_k (c : Dev nD) : V7 m ρ c main_arg1 = m ((c : Thread nD τ).loc main_arg1) := by
  refine (W7_of_ne m ρ c main_arg1 (by decide)).trans ?_
  show StableHlo.after hostOps0_5 (StableHlo.after hostOps0_4 (StableHlo.after hostOps0_3 (StableHlo.after hostOps0_2
    (StableHlo.after hostOps0_1 (StableHlo.after hostOps0 (W0 m ρ c)))))) (Proc.devRef .tc main_arg1) = _
  after_results

/-- The cosine rows again: the first region took them through an input window and left them as it found them. -/
theorem entry_cos' (c : Dev nD) : V7 m ρ c main_v15 = V6 m ρ c main_v15 :=
  (W7_arr m ρ c 1).trans (((dat0 (V6 m ρ) c).arrAt_in 1 rfl _).trans (A_eq0 (V6 m ρ) c 1))

/-- The sine rows again. -/
theorem entry_sin' (c : Dev nD) : V7 m ρ c main_v23 = V6 m ρ c main_v23 :=
  (W7_arr m ρ c 2).trans (((dat0 (V6 m ρ) c).arrAt_in 2 rfl _).trans (A_eq0 (V6 m ρ) c 2))

/-! ## The two results at the last boundary -/

/-- The first result: rotate-half of q by the selected rows. The second region does not touch it. -/
theorem last_q (c : Dev nD) :
    W8 m ρ c (Proc.devRef .tc main_v24)
      = rotateHalf (R := 16384) (W := 4096) (φ := .f32) (m ((c : Thread nD τ).loc main_arg0))
          (Cert.ReferenceIdeal.Read.val_main_v15 (F := F) (m ((c : Thread nD τ).loc main_arg2)))
          (Cert.ReferenceIdeal.Read.val_main_v23 (F := F) (m ((c : Thread nD τ).loc main_arg3))) := by
  refine (W8_of_ne m ρ c main_v24 (by decide)).trans ((W7_arr m ρ c 3).trans ((final_q (V6 m ρ) c).trans ?_))
  rw [entry_q, entry_cos, entry_sin]

/-- The second result: rotate-half of k by the same rows. -/
theorem last_k (c : Dev nD) :
    W8 m ρ c (Proc.devRef .tc main_v25)
      = rotateHalf (R := 16384) (W := 1024) (φ := .f32) (m ((c : Thread nD τ).loc main_arg1))
          (Cert.ReferenceIdeal.Read.val_main_v15 (F := F) (m ((c : Thread nD τ).loc main_arg2)))
          (Cert.ReferenceIdeal.Read.val_main_v23 (F := F) (m ((c : Thread nD τ).loc main_arg3))) := by
  refine (W8_arr m ρ c 3).trans ((final_k (V7 m ρ) c).trans ?_)
  rw [entry_k, entry_cos', entry_sin', entry_cos, entry_sin]

/-! ## The run, read -/

/-- Every weakly fair execution of the kernel program terminates, nothing faulting, with the first result at
    rotate-half of q and the second at rotate-half of k, both by the selected rows, and the arguments unchanged. -/
theorem run : θ_run defs (onTc (τ := τ) (main (F := F))) ⟨m, fun _ => 0, ρ⟩ (fun r => ∀ c : Dev nD,
      r.2.mem ((c : Thread nD τ).loc main_v24)
        = rotateHalf (R := 16384) (W := 4096) (φ := .f32) (m ((c : Thread nD τ).loc main_arg0))
            (Cert.ReferenceIdeal.Read.val_main_v15 (F := F) (m ((c : Thread nD τ).loc main_arg2)))
            (Cert.ReferenceIdeal.Read.val_main_v23 (F := F) (m ((c : Thread nD τ).loc main_arg3)))
      ∧ r.2.mem ((c : Thread nD τ).loc main_v25)
        = rotateHalf (R := 16384) (W := 1024) (φ := .f32) (m ((c : Thread nD τ).loc main_arg1))
            (Cert.ReferenceIdeal.Read.val_main_v15 (F := F) (m ((c : Thread nD τ).loc main_arg2)))
            (Cert.ReferenceIdeal.Read.val_main_v23 (F := F) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c =>
    ⟨(h c _ (mem_uc main_v24 (by decide))).trans (last_q m ρ c),
     (h c _ (mem_uc main_v25 (by decide))).trans (last_k m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c)⟩)
    (run_unscoped m ρ)

end Cert.KernelIdeal.Rope

end
-- ==== Proof.ReferenceValue.lean ====
/-
  What the reference computes: with the selected cosine and sine rows (its stages %15 and %23, functions of the
  third and fourth arguments) as the factors, its two results are rotate-half of its first argument (32 heads) and of
  its second (8 heads). Each result's stage is the host chain of LibRotateHalf at R = 16384.
-/
import proofs.«179388_j67293547594175_1_alg».proof.Proof.Gen.ReferenceIdeal.Read
import proofs.«179388_j67293547594175_1_alg».proof.Proof.LibRotateHalf

noncomputable section

namespace Cert.ReferenceIdeal.Rope

open Idealize.ShloMosaic Cert.ReferenceIdeal Cert.ReferenceIdeal.Read RotateHalf

variable {F : FTy → Type} [FloatOps F]

/-- The first result is rotate-half of the first argument by the selected rows. -/
theorem result_q (x0 : (⟨S16384x4096, .f32⟩ : BufTy).Contents (Elt F)) (x2 x3 : (⟨S3x16384x64, .f32⟩ : BufTy).Contents (Elt F)) :
    val_main_v41 (F := F) x0 x2 x3
      = rotateHalf (R := 16384) (W := 4096) x0 (val_main_v15 (F := F) x2) (val_main_v23 (F := F) x3) := by
  unfold val_main_v41 val_main_v40 val_main_v39 val_main_v38 val_main_v37 val_main_v36 val_main_v35 val_main_v34
    val_main_v33 val_main_v32 val_main_v31 val_main_v30 val_main_v29 val_main_v28 val_main_v27 val_main_v26
    val_main_v25 val_main_v24
  exact host_chain (H := 32) rfl x0 _ _ _ _ _ _ _ _ _ _

/-- The second result is rotate-half of the second argument by the selected rows. -/
theorem result_k (x1 : (⟨S16384x1024, .f32⟩ : BufTy).Contents (Elt F)) (x2 x3 : (⟨S3x16384x64, .f32⟩ : BufTy).Contents (Elt F)) :
    val_main_v59 (F := F) x1 x2 x3
      = rotateHalf (R := 16384) (W := 1024) x1 (val_main_v15 (F := F) x2) (val_main_v23 (F := F) x3) := by
  unfold val_main_v59 val_main_v58 val_main_v57 val_main_v56 val_main_v55 val_main_v54 val_main_v53 val_main_v52
    val_main_v51 val_main_v50 val_main_v49 val_main_v48 val_main_v47 val_main_v46 val_main_v45 val_main_v44
    val_main_v43 val_main_v42
  exact host_chain (H := 8) rfl x1 _ _ _ _ _ _ _ _ _ _

end Cert.ReferenceIdeal.Rope

end
-- ==== Proof.lean ====
/-
  Multi-section rotary embedding of q [16384, 4096] (32 heads of 128) and k [16384, 1024] (8 heads of 128) by cosine
  and sine tables [3, 16384, 64]: the kernel program against its jnp reference, equal over the extended reals.

  Both programs first select, lane by lane, one of the three sections of each table (two integer lane masks and two
  selects: the same host operations on the same integer literals 32, 32, 64 in both), giving a cosine row array C and
  a sine row array S of shape [16384, 64]. Then each of q and k is rotated head by head: with x1, x2 the two halves of
  a head,  new1 = x1 * C - x2 * S,  new2 = x2 * C + x1 * S,  the halves joined back (rotate-half: LibRotateHalf).
  The reference does this on whole arrays; the kernel program does it in two pipelined kernels of 64 grid points, each
  point loading 256 rows of its array and of C and S and storing the rotated 256 rows. Since rotate-half reads one row
  at a time, the 64 stored blocks are the 64 row blocks of the reference's result. The two sides apply the same float
  operations to the same operands in the same order at every entry, so no law of the arithmetic is used and the
  precondition (finite inputs) is never opened; the equality holds at every float instance and is cited at the ideal one.

  The pieces: LibRotateHalf (the function; the body's and the host's operation chains compute it; row-locality),
  BlockBody (the stored block is rotate-half of the loaded blocks), KernelValue (blocks to arrays, per region),
  KernelRun (the kernel program's run with every buffer named at the end), KernelResult (its two results as
  rotate-half of the arguments), ReferenceValue (the reference's two results as the same). The kernel program's
  idealization rewrote nothing, so that conjunct is trivial; the frames are the generated ones, the reference's its
  generated run with the results dropped.
-/
import proofs.«179388_j67293547594175_1_alg».proof.Defs
import proofs.«179388_j67293547594175_1_alg».proof.Proof.Gen.Kernel
import proofs.«179388_j67293547594175_1_alg».proof.Proof.Gen.Kernel.Skeleton
import proofs.«179388_j67293547594175_1_alg».proof.Proof.Gen.Kernel.Launch
import proofs.«179388_j67293547594175_1_alg».proof.Proof.Gen.Kernel.Points
import proofs.«179388_j67293547594175_1_alg».proof.Proof.Gen.Kernel.Frame
import proofs.«179388_j67293547594175_1_alg».proof.Proof.Gen.KernelIdeal
import proofs.«179388_j67293547594175_1_alg».proof.Proof.Gen.KernelIdeal.Skeleton
import proofs.«179388_j67293547594175_1_alg».proof.Proof.Gen.KernelIdeal.Launch
import proofs.«179388_j67293547594175_1_alg».proof.Proof.Gen.KernelIdeal.Points
import proofs.«179388_j67293547594175_1_alg».proof.Proof.Gen.KernelIdeal.Frame
import proofs.«179388_j67293547594175_1_alg».proof.Proof.Gen.ReferenceIdeal
import proofs.«179388_j67293547594175_1_alg».proof.Proof.Gen.ReferenceIdeal.Run
import proofs.«179388_j67293547594175_1_alg».proof.Proof.Gen.ReferenceIdeal.Read
import proofs.«179388_j67293547594175_1_alg».proof.Proof.Gen.Pre_finite_inputs
import proofs.«179388_j67293547594175_1_alg».proof.Proof.KernelResult
import proofs.«179388_j67293547594175_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation: nothing to state. -/
theorem preserves : Cert.preserves_Kernel_KernelIdeal := trivial

/-- From memories agreeing on the four arguments, the kernel program ends with rotate-half of q and of k by the
    selected rows (KernelResult), and the reference's two results are the same functions of its own arguments
    (ReferenceValue), which are the kernel program's. -/
theorem algebraic : Cert.algebraic_KernelIdeal_ReferenceIdeal := by
  intro m ρ m' ρ' _ hagree
  refine ⟨_, _, Cert.KernelIdeal.Rope.run (F := Ideal) m ρ, ?_⟩
  refine (θ_run Cert.ReferenceIdeal.defs _ _).mono (fun _ h c => ?_) (Cert.ReferenceIdeal.Value.run (F := Ideal) m' ρ')
  obtain ⟨a0, a1, a2, a3⟩ := hagree c
  refine ⟨(h c).1.trans ?_, (h c).2.1.trans ?_, (h c).2.2⟩
  · rw [Cert.ReferenceIdeal.Read.val_main_v41_eq, Cert.ReferenceIdeal.Rope.result_q, a0, a2, a3]
  · rw [Cert.ReferenceIdeal.Read.val_main_v59_eq, Cert.ReferenceIdeal.Rope.result_k, a1, a2, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
